-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S1x11008 : Shape := ⟨2, ![1, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S1x11008 : S_.BroadcastsInDim S1x11008 (![] : Fin 0 → Fin S1x11008.rank)
  reducesTo_S1x11008_S_d0_1 : S1x11008.ReducesTo [0, 1] S_

variable [Facts]

def fn {F : FTy → Type} [FloatOps F] (main_arg0 : FVec F S4x2048x4096 .f32) (main_arg1 : IVec S11008x4096 32) (main_arg2 : FVec F S11008 .f32) (main_arg3 : IVec S11008 32) (main_arg4 : FVec F S1x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S1x11008 .f32 := Host.absf main_arg4
  let main_cst_2 : FVec F S_ .f32 := constant S_ .f32 0x7F800000#32
  let main_v10 : FVec F S1x11008 .f32 := broadcastInDim S1x11008 ![] bcast_S_S1x11008 main_cst_2
  let main_v11 : IVec S1x11008 1 := cmpf .olt main_v9 main_v10
  let main_c_3 : IVec S_ 1 := constantI S_ 1 1#1
  let main_v12 : IVec S_ 1 := (fun x v => Host.reduce IntOp.andi x v reducesTo_S1x11008_S_d0_1 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008 : Shape := ⟨1, ![11008]⟩
abbrev S1x11008 : Shape := ⟨2, ![1, 11008]⟩
abbrev S8192x4096 : Shape := ⟨2, ![8192, 4096]⟩
abbrev S_ : Shape := ⟨0, ![]⟩
abbrev S11264x4096 : Shape := ⟨2, ![11264, 4096]⟩
abbrev S11264 : Shape := ⟨1, ![11264]⟩
abbrev S11264x1 : Shape := ⟨2, ![11264, 1]⟩
abbrev S1x11264 : Shape := ⟨2, ![1, 11264]⟩
abbrev S8192x11264 : Shape := ⟨2, ![8192, 11264]⟩
abbrev S512x2048 : Shape := ⟨2, ![512, 2048]⟩
abbrev S512x1 : Shape := ⟨2, ![512, 1]⟩
abbrev S1x512 : Shape := ⟨2, ![1, 512]⟩
abbrev S512x512 : Shape := ⟨2, ![512, 512]⟩
abbrev S8192x11008 : Shape := ⟨2, ![8192, 11008]⟩
abbrev S4x2048x11008 : Shape := ⟨3, ![4, 2048, 11008]⟩

abbrev nBuf : Space → Nat
  | .hbm => 23
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .i32⟩
  | .hbm, ⟨4, _⟩ => ⟨S1x11008, .f32⟩
  | .hbm, ⟨5, _⟩ => ⟨S8192x4096, .f32⟩
  | .hbm, ⟨6, _⟩ => ⟨S_, .i32⟩
  | .hbm, ⟨7, _⟩ => ⟨S_, .i32⟩
  | .hbm, ⟨8, _⟩ => ⟨S11264x4096, .i32⟩
  | .hbm, ⟨9, _⟩ => ⟨S_, .i32⟩
  | .hbm, ⟨10, _⟩ => ⟨S_, .f32⟩
  | .hbm, ⟨11, _⟩ => ⟨S11264, .f32⟩
  | .hbm, ⟨12, _⟩ => ⟨S11264x1, .f32⟩
  | .hbm, ⟨13, _⟩ => ⟨S_, .i32⟩
  | .hbm, ⟨14, _⟩ => ⟨S_, .i32⟩
  | .hbm, ⟨15, _⟩ => ⟨S11264, .i32⟩
  | .hbm, ⟨16, _⟩ => ⟨S11264x1, .i32⟩
  | .hbm, ⟨17, _⟩ => ⟨S_, .i32⟩
  | .hbm, ⟨18, _⟩ => ⟨S_, .f32⟩
  | .hbm, ⟨19, _⟩ => ⟨S1x11264, .f32⟩
  | .hbm, ⟨20, _⟩ => ⟨S8192x11264, .f32⟩
  | .hbm, ⟨21, _⟩ => ⟨S8192x11008, .f32⟩
  | .hbm, ⟨22, _⟩ => ⟨S4x2048x11008, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S512x1, .f32⟩
  | .local _ .vmem, ⟨5, _⟩ => ⟨S512x1, .f32⟩
  | .local _ .vmem, ⟨6, _⟩ => ⟨S512x1, .i32⟩
  | .local _ .vmem, ⟨7, _⟩ => ⟨S512x1, .i32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_call3_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 22, 2], ![false, false, false]⟩

def k0_cond2 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  shapeCasts_S11264_S11264x1 : S11264.ShapeCasts S11264x1
  pads_S1x11008_S1x11264_000_02560 : S1x11008.Pads (![0, 0] : Fin 2 → Nat) ![0, 256] ![0, 0] S1x11264
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  slices_S8192x11264_S8192x11008_0_0 : S8192x11264.Slices ![0, 0] S8192x11008
  shapeCasts_S8192x11008_S4x2048x11008 : S8192x11008.ShapeCasts S4x2048x11008
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S11264x4096.size a
  hwx0_1 : ∀ i : grid0.Coords, EltTy.bits .i32 = 32 ∨ (Rect.block (s := S11264x4096) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S11264x1.size a
  hwx0_2 : ∀ i : grid0.Coords, EltTy.bits .f32 = 32 ∨ (Rect.block (s := S11264x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S11264x1.size a
  hwx0_3 : ∀ i : grid0.Coords, EltTy.bits .i32 = 32 ∨ (Rect.block (s := S11264x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x11264.size a
  hwx0_4 : ∀ i : grid0.Coords, EltTy.bits .f32 = 32 ∨ (Rect.block (s := S1x11264) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x11264.size a
  hwx0_5 : ∀ i : grid0.Coords, EltTy.bits .f32 = 32 ∨ (Rect.block (s := S8192x11264) S512x512.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S1x11008 : Shape := ⟨2, ![1, 11008]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .i32⟩
  | .hbm, ⟨4, _⟩ => ⟨S1x11008, .f32⟩
  | .hbm, ⟨5, _⟩ => ⟨S11008x4096, .f32⟩
  | .hbm, ⟨6, _⟩ => ⟨S11008, .f32⟩
  | .hbm, ⟨7, _⟩ => ⟨S11008x1, .f32⟩
  | .hbm, ⟨8, _⟩ => ⟨S11008x1, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S11008x4096, .f32⟩
  | .hbm, ⟨13, _⟩ => ⟨S4x2048x11008, .f32⟩
  | .hbm, ⟨14, _⟩ => ⟨S1x1x11008, .f32⟩
  | .hbm, ⟨15, _⟩ => ⟨S4x2048x11008, .f32⟩
  | .hbm, ⟨16, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S1x11008_S1x1x11008_1_2 : S1x11008.BroadcastsInDim S1x1x11008 (![1, 2] : Fin 2 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Pieces.lean ====
/-
  What the kernel body leaves behind at the two kinds of grid point, as values. The body keeps a 512 × 512 accumulator
  across the two visits of a tile. At the first visit (contraction half 0) it stores the zero block into the accumulator,
  reads it back, adds the half-product and stores the sum: the accumulator ends at the accumulation step applied to the
  zero block. At the second visit (half 1) it adds the half-product to what the first visit left, and stores the
  accumulator plus the bias row into the output block. Every load and store goes through a whole buffer, so the last
  covering store is what a buffer holds. Stated for any float instance: no arithmetic is opened here.
-/
import proofs.«116841_j1623497638588_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a grid point with k = 1 the accumulator, found holding `acc`, is left holding the accumulation step's value of
    the point's blocks and `acc`: the body's one store into it covers it, and its loads read whole buffers. -/
theorem sout_B (c : Dev nD) (i : grid0.Coords) (arg3 : Memref sig .tc .vmem S512x2048 .f32) (harg3 : arg3.IsWhole) (arg4 : Memref sig .tc .vmem S512x2048 .i32) (harg4 : arg4.IsWhole) (arg5 : Memref sig .tc .vmem S512x1 .f32) (harg5 : arg5.IsWhole) (arg6 : Memref sig .tc .vmem S512x1 .i32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x2048 .f32) (x1 : Vec F S512x2048 .i32) (x2 : Vec F S512x1 .f32) (x3 : Vec F S512x1 .i32) (x4 : Vec F S1x512 .f32) (xs0 : Vec F S512x512 .f32) :
    sout0_B_0 c i arg3 harg3 arg4 harg4 arg5 harg5 arg6 harg6 arg7 harg7 arg8 harg8 arg9 harg9 hc0 hc1 x0 x1 x2 x3 x4 xs0 = k0_pay2 x0 x1 x3 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg7.read_unread, harg9.read_unread, View.ld_unit_zero (S := S512x2048) hz, View.ld_unit_zero (S := S512x1) hz, View.ld_unit_zero (S := S512x512) hz, View.ld_unit_zero (S := S1x512) hz]

/-- At a grid point with k = 0 the accumulator is first zeroed, read back, and left holding the accumulation step's value
    of the point's blocks and the zero block: the later of the two covering stores is what remains. -/
theorem sout_A (c : Dev nD) (i : grid0.Coords) (arg3 : Memref sig .tc .vmem S512x2048 .f32) (harg3 : arg3.IsWhole) (arg4 : Memref sig .tc .vmem S512x2048 .i32) (harg4 : arg4.IsWhole) (arg5 : Memref sig .tc .vmem S512x1 .f32) (harg5 : arg5.IsWhole) (arg6 : Memref sig .tc .vmem S512x1 .i32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x2048 .f32) (x1 : Vec F S512x2048 .i32) (x2 : Vec F S512x1 .f32) (x3 : Vec F S512x1 .i32) (x4 : Vec F S1x512 .f32) :
    sout0_A_0 c i arg3 harg3 arg4 harg4 arg5 harg5 arg6 harg6 arg7 harg7 arg8 harg8 arg9 harg9 hc0 hc1 x0 x1 x2 x3 x4 = k0_pay2 x0 x1 x3 x2 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg9.read_unread, View.ld_unit_zero (S := S512x2048) hz, View.ld_unit_zero (S := S512x1) hz, View.ld_unit_zero (S := S512x512) hz, View.ld_unit_zero (S := S1x512) hz]

/-- At a grid point with k = 1 the output block is left holding the accumulator's new contents plus the bias row. -/
theorem out_B (c : Dev nD) (i : grid0.Coords) (arg3 : Memref sig .tc .vmem S512x2048 .f32) (harg3 : arg3.IsWhole) (arg4 : Memref sig .tc .vmem S512x2048 .i32) (harg4 : arg4.IsWhole) (arg5 : Memref sig .tc .vmem S512x1 .f32) (harg5 : arg5.IsWhole) (arg6 : Memref sig .tc .vmem S512x1 .i32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x2048 .f32) (x1 : Vec F S512x2048 .i32) (x2 : Vec F S512x1 .f32) (x3 : Vec F S512x1 .i32) (x4 : Vec F S1x512 .f32) (xs0 : Vec F S512x512 .f32) :
    out0_B_5 c i arg3 harg3 arg4 harg4 arg5 harg5 arg6 harg6 arg7 harg7 arg8 harg8 arg9 harg9 hc0 hc1 x0 x1 x2 x3 x4 xs0 = k0_pay3 (k0_pay2 x0 x1 x3 x2 xs0) x4 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz, View.readCov_unit_zero (S := S512x512) _ hz]
  simp only [View.readAt_eq_ld, harg3.read_unread, harg4.read_unread, harg5.read_unread, harg6.read_unread, harg7.read_unread, harg9.read_unread, View.ld_unit_zero (S := S512x2048) hz, View.ld_unit_zero (S := S512x1) hz, View.ld_unit_zero (S := S512x512) hz, View.ld_unit_zero (S := S1x512) hz]

end Cert.KernelIdeal.Pieces

end
-- ==== Proof.Spec.lean ====
/-
  The specification of the quantized linear layer, over plain functions of indices.

  With `cv` the conversion of an integer entry to a real number, the layer's result at batch `b`, position `s`, output
  feature `o` is
      (∑ i, x[b,s,i] · (scale[o] · (cv w[o,i] − cv zp[o]))) + bias[0,o]           (`linear`).
  A tiled evaluation works on the activations flattened to rows `r = 2048·b + s`, on weights, scales, zero points and
  bias padded along the output-feature axis, multiplies the dequantization factors in the other order, and adds the
  contraction in two halves of 2048 starting from zero (`tiled`). Over the extended reals the two agree: addition is
  commutative and associative there, multiplication commutative, and no other law is used (`tiled_eq_linear`) — in
  particular no finiteness of any entry.
-/
import Idealize.ShloMosaic.PureOps.Ideal
import Idealize.ShloMosaic.Lib.ValueIdx

noncomputable section

namespace Cert.Spec

open Idealize.ShloMosaic Idealize.ShloMosaic.ValueIdx

variable {β : Type}

/-- Contraction position `k` of the first half. -/
abbrev lo (k : Fin 2048) : Fin 4096 := ⟨k.val, by have := k.isLt; omega⟩
/-- Contraction position `2048 + k` of the second half. -/
abbrev hi (k : Fin 2048) : Fin 4096 := ⟨2048 + k.val, by have := k.isLt; omega⟩

/-- A sum over 4096 positions is the sum over the first 2048 (started from zero) plus the sum over the last 2048. -/
theorem two_halves {M : Type} [AddCommMonoid M] (f : Fin 4096 → M) :
    (0 + ∑ k : Fin 2048, f (lo k)) + ∑ k : Fin 2048, f (hi k) = ∑ k : Fin 4096, f k := by
  rw [zero_add]
  exact (Fin.sum_univ_add (a := 2048) (b := 2048) f).symm

/-- The layer: `(∑ i, x[b,s,i] · (scale[o] · (cv w[o,i] − cv zp[o]))) + bias[0,o]`. -/
def linear (cv : β → EReal)
    (x : (⟨3, ![4, 2048, 4096]⟩ : Shape).Idx → EReal) (w : (⟨2, ![11008, 4096]⟩ : Shape).Idx → β)
    (sc : (⟨1, ![11008]⟩ : Shape).Idx → EReal) (zp : (⟨1, ![11008]⟩ : Shape).Idx → β)
    (bias : (⟨2, ![1, 11008]⟩ : Shape).Idx → EReal) (b : Fin 4) (s : Fin 2048) (o : Fin 11008) : EReal :=
  (∑ k : Fin 4096, x (ix3 b s k) * (sc (ix1 o) * (cv (w (ix2 o k)) - cv (zp (ix1 o))))) + bias (ix2 0 o)

/-- One tile's entry from the tile's operand blocks: the first half-sum added to zero, then the second half-sum, then
    the bias; each product is `x · ((cv w − cv zp) · scale)`. Row `p` of the activation blocks, row `q` of the weight blocks. -/
def block (cv : β → EReal)
    (xa xb : (⟨2, ![512, 2048]⟩ : Shape).Idx → EReal) (wa wb : (⟨2, ![512, 2048]⟩ : Shape).Idx → β)
    (sca scb : (⟨2, ![512, 1]⟩ : Shape).Idx → EReal) (zpa zpb : (⟨2, ![512, 1]⟩ : Shape).Idx → β)
    (bias : (⟨2, ![1, 512]⟩ : Shape).Idx → EReal) (p q : Fin 512) : EReal :=
  ((0 + ∑ k : Fin 2048, xa (ix2 p k) * ((cv (wa (ix2 q k)) - cv (zpa (ix2 q 0))) * sca (ix2 q 0)))
    + ∑ k : Fin 2048, xb (ix2 p k) * ((cv (wb (ix2 q k)) - cv (zpb (ix2 q 0))) * scb (ix2 q 0)))
    + bias (ix2 0 q)

/-- The same on the whole flattened and padded arrays: entry (`r`, `n`) of the padded result. -/
def tiled (cv : β → EReal)
    (X : (⟨2, ![8192, 4096]⟩ : Shape).Idx → EReal) (W : (⟨2, ![11264, 4096]⟩ : Shape).Idx → β)
    (Sc : (⟨2, ![11264, 1]⟩ : Shape).Idx → EReal) (Zp : (⟨2, ![11264, 1]⟩ : Shape).Idx → β)
    (B : (⟨2, ![1, 11264]⟩ : Shape).Idx → EReal) (r : Fin 8192) (n : Fin 11264) : EReal :=
  ((0 + ∑ k : Fin 2048, X (ix2 r (lo k)) * ((cv (W (ix2 n (lo k))) - cv (Zp (ix2 n 0))) * Sc (ix2 n 0)))
    + ∑ k : Fin 2048, X (ix2 r (hi k)) * ((cv (W (ix2 n (hi k))) - cv (Zp (ix2 n 0))) * Sc (ix2 n 0)))
    + B (ix2 0 n)

/-- A tile's entry is the whole arrays' entry when the blocks are the arrays read at the tile's offsets. -/
theorem block_eq_tiled (cv : β → EReal)
    (xa xb : (⟨2, ![512, 2048]⟩ : Shape).Idx → EReal) (wa wb : (⟨2, ![512, 2048]⟩ : Shape).Idx → β)
    (sca scb : (⟨2, ![512, 1]⟩ : Shape).Idx → EReal) (zpa zpb : (⟨2, ![512, 1]⟩ : Shape).Idx → β)
    (bias : (⟨2, ![1, 512]⟩ : Shape).Idx → EReal) (p q : Fin 512)
    (X : (⟨2, ![8192, 4096]⟩ : Shape).Idx → EReal) (W : (⟨2, ![11264, 4096]⟩ : Shape).Idx → β)
    (Sc : (⟨2, ![11264, 1]⟩ : Shape).Idx → EReal) (Zp : (⟨2, ![11264, 1]⟩ : Shape).Idx → β)
    (B : (⟨2, ![1, 11264]⟩ : Shape).Idx → EReal) (r : Fin 8192) (n : Fin 11264)
    (hxa : ∀ k, xa (ix2 p k) = X (ix2 r (lo k))) (hxb : ∀ k, xb (ix2 p k) = X (ix2 r (hi k)))
    (hwa : ∀ k, wa (ix2 q k) = W (ix2 n (lo k))) (hwb : ∀ k, wb (ix2 q k) = W (ix2 n (hi k)))
    (hsa : sca (ix2 q 0) = Sc (ix2 n 0)) (hsb : scb (ix2 q 0) = Sc (ix2 n 0))
    (hza : zpa (ix2 q 0) = Zp (ix2 n 0)) (hzb : zpb (ix2 q 0) = Zp (ix2 n 0))
    (hb : bias (ix2 0 q) = B (ix2 0 n)) :
    block cv xa xb wa wb sca scb zpa zpb bias p q = tiled cv X W Sc Zp B r n := by
  unfold block tiled
  rw [hsa, hsb, hza, hzb, hb]
  simp only [hxa, hxb, hwa, hwb]

/-- The tiled evaluation is the layer, when the flattened and padded arrays are the arguments read at the matching
    indices. Commutativity of the product and regrouping of the sum, on the extended reals. -/
theorem tiled_eq_linear (cv : β → EReal)
    (X : (⟨2, ![8192, 4096]⟩ : Shape).Idx → EReal) (W : (⟨2, ![11264, 4096]⟩ : Shape).Idx → β)
    (Sc : (⟨2, ![11264, 1]⟩ : Shape).Idx → EReal) (Zp : (⟨2, ![11264, 1]⟩ : Shape).Idx → β)
    (B : (⟨2, ![1, 11264]⟩ : Shape).Idx → EReal) (r : Fin 8192) (n : Fin 11264)
    (x : (⟨3, ![4, 2048, 4096]⟩ : Shape).Idx → EReal) (w : (⟨2, ![11008, 4096]⟩ : Shape).Idx → β)
    (sc : (⟨1, ![11008]⟩ : Shape).Idx → EReal) (zp : (⟨1, ![11008]⟩ : Shape).Idx → β)
    (bias : (⟨2, ![1, 11008]⟩ : Shape).Idx → EReal) (b : Fin 4) (s : Fin 2048) (o : Fin 11008)
    (hX : ∀ k, X (ix2 r k) = x (ix3 b s k)) (hW : ∀ k, W (ix2 n k) = w (ix2 o k))
    (hS : Sc (ix2 n 0) = sc (ix1 o)) (hZ : Zp (ix2 n 0) = zp (ix1 o)) (hB : B (ix2 0 n) = bias (ix2 0 o)) :
    tiled cv X W Sc Zp B r n = linear cv x w sc zp bias b s o := by
  unfold tiled linear
  rw [hS, hZ, hB]
  simp only [hX, hW]
  rw [two_halves (fun k => x (ix3 b s k) * ((cv (w (ix2 o k)) - cv (zp (ix1 o))) * sc (ix1 o)))]
  refine congrArg (· + bias (ix2 0 o)) (Finset.sum_congr rfl fun k _ => ?_)
  rw [mul_comm (sc (ix1 o))]

end Cert.Spec

end
-- ==== Proof.Payload.lean ====
/-
  The kernel body's arithmetic, read at one entry over the extended reals. The accumulation step is
  `acc + x · ((w − zp) · scale)ᵀ` on 512 × 2048 blocks: at row `p`, column `q` the accumulator's entry plus the sum over
  the 2048 contraction positions `k` of `x[p,k] · ((cv w[q,k] − cv zp[q]) · scale[q])`, the zero points and scales being
  columns broadcast along the rows, the roundings to bf16 the identity. The epilogue adds the bias row, broadcast down
  the rows. Two steps from the zero block and the epilogue give the specification's block formula.
-/
import proofs.«116841_j1623497638588_1_alg».proof.Proof.Gen.KernelIdeal.Skeleton
import proofs.«116841_j1623497638588_1_alg».proof.Proof.Spec
import Idealize.ShloMosaic.PureOps.Ideal.Laws
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Payload

open Cert.KernelIdeal Cert.KernelIdeal.Gen

/-- An integer entry as a real number. -/
abbrev cv : BitVec 32 → EReal := fun b => FloatOps.sitofp (F := Ideal) .f32 b

/-- The block product's dimension numbers: both operands contract their second axis. -/
abbrev D : DotDims S512x2048 S512x2048 S512x512 := dot_S512x2048_S512x2048_S512x512_1_1_0_0_n_n

theorem lhs0 (j : S512x512.Idx) (q : D.contr.Idx) : (D.lhsIdx j q 0).val = (j 0).val := by
  unfold DotDims.lhsIdx
  rw [dif_neg (show ¬(0 : Fin S512x2048.rank) ∈ D.lhsBatch by decide), dif_pos (show (0 : Fin S512x2048.rank) ∈ D.lhsNonContracting by decide)]
  rfl
theorem lhs1 (j : S512x512.Idx) (q : D.contr.Idx) : (D.lhsIdx j q 1).val = (q ⟨0, by decide⟩).val :=
  D.lhsIdx_val_of_single rfl j q
theorem rhs0 (j : S512x512.Idx) (q : D.contr.Idx) : (D.rhsIdx j q 0).val = (j 1).val := by
  unfold DotDims.rhsIdx
  rw [dif_neg (show ¬(0 : Fin S512x2048.rank) ∈ D.rhsBatch by decide), dif_pos (show (0 : Fin S512x2048.rank) ∈ D.rhsNonContracting by decide)]
  rfl
theorem rhs1 (j : S512x512.Idx) (q : D.contr.Idx) : (D.rhsIdx j q 1).val = (q ⟨0, by decide⟩).val :=
  D.rhsIdx_val_of_single rfl j q

/-- The block product into a zero accumulator, at row `p` and column `q`: the sum over the 2048 contraction positions of
    row `p` of the left block times row `q` of the right block. -/
theorem matmul_zero_apply (l r : FVec Ideal S512x2048 .bf16) (p q : Fin 512) :
    FloatOps.matmul D none l r (constant (F := Ideal) S512x512 .f32 0x00000000#32) (ix2 p q)
      = ∑ k : Fin 2048, l (ix2 p k) * r (ix2 q k) := by
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 2048 rfl rfl).symm k) = ix2 q k := funext fun a => Fin.ext (by
    match a with
    | ⟨0, _⟩ => exact rhs0 _ _
    | ⟨1, _⟩ => exact (rhs1 _ _).trans hk)
  rw [el, er]

/-- A column [512,1] broadcast along the rows of a [512,2048] block reads the column's entry of the same row. -/
theorem bcast_col {α : Type} (v : S512x1.Idx → α) (h : S512x1.Broadcasts S512x2048) (q : Fin 512) (k : Fin 2048) :
    broadcastTo S512x2048 v h (ix2 q k) = v (ix2 q 0) :=
  broadcastTo_apply v h (ix2 q k) (ix2 q 0) (fun a => match a with
    | ⟨0, _⟩ => by show q.val = if (512 : Nat) = 1 then 0 else q.val; rw [if_neg (by decide)]
    | ⟨1, _⟩ => by show 0 = if (1 : Nat) = 1 then 0 else k.val; rw [if_pos rfl])

/-- A row [1,512] broadcast down the rows of a [512,512] block reads the row's entry of the same column. -/
theorem bcast_row {α : Type} (v : S1x512.Idx → α) (h : S1x512.Broadcasts S512x512) (p q : Fin 512) :
    broadcastTo S512x512 v h (ix2 p q) = v (ix2 0 q) :=
  broadcastTo_apply v h (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The zero block. -/
theorem pay1_apply (y : S512x512.Idx) : k0_pay1 (F := Ideal) y = 0 := by
  unfold k0_pay1
  simp only [shapeCast_self]
  exact Ideal.ofBits_zero_f32

/-- The accumulation step at row `p`, column `q`: the accumulator's entry plus the block product's. -/
theorem pay2_apply (x0 : Vec Ideal S512x2048 .f32) (x1 : Vec Ideal S512x2048 .i32) (zp : Vec Ideal S512x1 .i32)
    (sc : Vec Ideal S512x1 .f32) (acc : Vec Ideal S512x512 .f32) (p q : Fin 512) :
    k0_pay2 (F := Ideal) x0 x1 zp sc acc (ix2 p q)
      = acc (ix2 p q) + ∑ k : Fin 2048, x0 (ix2 p k) * ((cv (x1 (ix2 q k)) - cv (zp (ix2 q 0))) * sc (ix2 q 0)) := by
  unfold k0_pay2
  simp only [shapeCast_self]
  refine (congrArg (acc (ix2 p q) + ·) (matmul_zero_apply _ _ p q)).trans ?_
  refine congrArg (acc (ix2 p q) + ·) (Finset.sum_congr rfl fun k _ => ?_)
  show x0 (ix2 p k) * ((cv (x1 (ix2 q k)) - broadcastTo S512x2048 (sitofp (F := Ideal) .f32 zp) _ (ix2 q k))
    * broadcastTo S512x2048 sc _ (ix2 q k)) = _
  rw [bcast_col, bcast_col]
  rfl

/-- The epilogue at row `p`, column `q`: the accumulator's entry plus the bias row's entry of column `q`. -/
theorem pay3_apply (a : Vec Ideal S512x512 .f32) (b : Vec Ideal S1x512 .f32) (p q : Fin 512) :
    k0_pay3 (F := Ideal) a b (ix2 p q) = a (ix2 p q) + b (ix2 0 q) := by
  unfold k0_pay3
  simp only [shapeCast_self]
  show a (ix2 p q) + broadcastTo S512x512 b _ (ix2 p q) = _
  rw [bcast_row]

/-- A tile's two grid points together: from the zero block, the first half's step, the second half's step, the epilogue
    — entry (`p`, `q`) is the specification's block formula of the two points' operand blocks. -/
theorem tile_apply (xa xb : Vec Ideal S512x2048 .f32) (wa wb : Vec Ideal S512x2048 .i32)
    (sca scb : Vec Ideal S512x1 .f32) (zpa zpb : Vec Ideal S512x1 .i32) (bias : Vec Ideal S1x512 .f32) (p q : Fin 512) :
    k0_pay3 (F := Ideal) (k0_pay2 xb wb zpb scb (k0_pay2 xa wa zpa sca (k0_pay1 (F := Ideal)))) bias (ix2 p q)
      = Cert.Spec.block cv xa xb wa wb sca scb zpa zpb bias p q := by
  rw [pay3_apply, pay2_apply, pay2_apply, pay1_apply]
  rfl

end Cert.KernelIdeal.Payload

end
-- ==== Proof.Blocks.lean ====
/-
  The launch, tile by tile. The grid is 16 × 22 × 2: point `t` works on row block `t / 44`, column block `t / 2 % 22`
  and contraction half `t % 2`. At an even point the accumulator is zeroed and the first half-product added; at the odd
  point that follows, the second half-product is added, and the accumulator plus the bias row is written to the output
  block, which is written back there and only there. So what an odd point writes back is the block of ONE function of
  the arrays the launch finds (`outArr`), and since the odd points' blocks tile the output, the output array ends
  holding that function.
-/
import proofs.«116841_j1623497638588_1_alg».proof.Proof.Gen.KernelIdeal.Frame
import proofs.«116841_j1623497638588_1_alg».proof.Proof.Pieces
import proofs.«116841_j1623497638588_1_alg».proof.Proof.Payload
import proofs.«116841_j1623497638588_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen
open Cert.KernelIdeal.Payload (cv)

variable (m : (ℓ : Loc nD τ sig) → Buf (Elt Ideal) ℓ)

/-- The windows' block indices at grid point `t`, decided over the 704 points. -/
theorem idx_facts : ∀ t : Fin cfg0.N,
    win0_0.index t (0 : Fin 2) = t.val / 44 ∧ win0_0.index t (1 : Fin 2) = t.val % 2
    ∧ win0_1.index t (0 : Fin 2) = t.val / 2 % 22 ∧ win0_1.index t (1 : Fin 2) = t.val % 2
    ∧ win0_2.index t (0 : Fin 2) = t.val / 2 % 22 ∧ win0_2.index t (1 : Fin 2) = 0
    ∧ win0_3.index t (0 : Fin 2) = t.val / 2 % 22 ∧ win0_3.index t (1 : Fin 2) = 0
    ∧ win0_4.index t (0 : Fin 2) = 0 ∧ win0_4.index t (1 : Fin 2) = t.val / 2 % 22
    ∧ win0_5.index t (0 : Fin 2) = t.val / 44 ∧ win0_5.index t (1 : Fin 2) = t.val / 2 % 22 :=
  (by decide +kernel : ∀ t : Fin grid0.N, _)

/-- The activations' block at point `t`: rows from `512·(t/44)`, columns from `2048·(t%2)`. -/
theorem iblk0_apply (c : Dev nD) (t : Fin cfg0.N) (p : Fin 512) (k : Fin 2048) (r : Fin 8192) (kk : Fin 4096)
    (hr : r.val = 512 * (t.val / 44) + p.val) (hk : kk.val = 2048 * (t.val % 2) + k.val) :
    (iblk m c 0 t : S512x2048.Idx → Ideal .f32) (ix2 p k) = (V m c main_v0 : S8192x4096.Idx → Ideal .f32) (ix2 r kk) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t 0 * 512 + 1 * p.val = r.val; rw [e0, hr]; omega
  | ⟨1, _⟩ => show win0_0.index t 1 * 2048 + 1 * k.val = kk.val; rw [e1, hk]; omega

/-- The weights' block at point `t`: rows from `512·(t/2%22)`, columns from `2048·(t%2)`. -/
theorem iblk1_apply (c : Dev nD) (t : Fin cfg0.N) (q : Fin 512) (k : Fin 2048) (n : Fin 11264) (kk : Fin 4096)
    (hn : n.val = 512 * (t.val / 2 % 22) + q.val) (hk : kk.val = 2048 * (t.val % 2) + k.val) :
    (iblk m c 1 t : S512x2048.Idx → BitVec 32) (ix2 q k) = (V m c main_v1 : S11264x4096.Idx → BitVec 32) (ix2 n kk) := by
  obtain ⟨-, -, e0, e1, -⟩ := idx_facts t
  unfold iblk
  rw [View.read_apply]
  show V m c main_v1 _ = V m c main_v1 _
  refine congrArg (V m c main_v1) (funext fun a => Fin.ext ?_)
  match a with
  | ⟨0, _⟩ => show win0_1.index t 0 * 512 + 1 * q.val = n.val; rw [e0, hn]; omega
  | ⟨1, _⟩ => show win0_1.index t 1 * 2048 + 1 * k.val = kk.val; rw [e1, hk]; omega

/-- The scale column's block at point `t`: rows from `512·(t/2%22)`. -/
theorem iblk2_apply (c : Dev nD) (t : Fin cfg0.N) (q : Fin 512) (n : Fin 11264)
    (hn : n.val = 512 * (t.val / 2 % 22) + q.val) :
    (iblk m c 2 t : S512x1.Idx → Ideal .f32) (ix2 q 0) = (V m c main_v3 : S11264x1.Idx → Ideal .f32) (ix2 n 0) := by
  obtain ⟨-, -, -, -, e0, e1, -⟩ := idx_facts t
  unfold iblk
  rw [View.read_apply]
  show V m c main_v3 _ = V m c main_v3 _
  refine congrArg (V m c main_v3) (funext fun a => Fin.ext ?_)
  match a with
  | ⟨0, _⟩ => show win0_2.index t 0 * 512 + 1 * q.val = n.val; rw [e0, hn]; omega
  | ⟨1, _⟩ => show win0_2.index t 1 * 1 + 1 * 0 = 0; rw [e1]

/-- The zero-point column's block at point `t`: rows from `512·(t/2%22)`. -/
theorem iblk3_apply (c : Dev nD) (t : Fin cfg0.N) (q : Fin 512) (n : Fin 11264)
    (hn : n.val = 512 * (t.val / 2 % 22) + q.val) :
    (iblk m c 3 t : S512x1.Idx → BitVec 32) (ix2 q 0) = (V m c main_v5 : S11264x1.Idx → BitVec 32) (ix2 n 0) := by
  obtain ⟨-, -, -, -, -, -, e0, e1, -⟩ := idx_facts t
  unfold iblk
  rw [View.read_apply]
  show V m c main_v5 _ = V m c main_v5 _
  refine congrArg (V m c main_v5) (funext fun a => Fin.ext ?_)
  match a with
  | ⟨0, _⟩ => show win0_3.index t 0 * 512 + 1 * q.val = n.val; rw [e0, hn]; omega
  | ⟨1, _⟩ => show win0_3.index t 1 * 1 + 1 * 0 = 0; rw [e1]

/-- The bias row's block at point `t`: columns from `512·(t/2%22)`. -/
theorem iblk4_apply (c : Dev nD) (t : Fin cfg0.N) (q : Fin 512) (n : Fin 11264)
    (hn : n.val = 512 * (t.val / 2 % 22) + q.val) :
    (iblk m c 4 t : S1x512.Idx → Ideal .f32) (ix2 0 q) = (V m c main_v6 : S1x11264.Idx → Ideal .f32) (ix2 0 n) := by
  obtain ⟨-, -, -, -, -, -, -, -, e0, e1, -⟩ := idx_facts t
  unfold iblk
  rw [View.read_apply]
  show V m c main_v6 _ = V m c main_v6 _
  refine congrArg (V m c main_v6) (funext fun a => Fin.ext ?_)
  match a with
  | ⟨0, _⟩ => show win0_4.index t 0 * 1 + 1 * 0 = 0; rw [e0]
  | ⟨1, _⟩ => show win0_4.index t 1 * 512 + 1 * q.val = n.val; rw [e1, hn]; omega

/-- After an even point `u` the accumulator holds the first half's step over the zero block. -/
theorem outs_even (c : Dev nD) (u : Fin cfg0.N) (hu0 : u.val % 2 = 0) :
    (outsAt0 m c u.val u.isLt).2
      = k0_pay2 (iblk m c 0 u) (iblk m c 1 u) (iblk m c 3 u) (iblk m c 2 u) (k0_pay1 (F := Ideal)) := by
  have hu1 : ¬u.val % 2 = 1 := by omega
  rw [outsAt0_A m c u hu0 hu1]
  dsimp only
  exact Pieces.sout_A (F := Ideal) c (grid0.coords u) (ms0_0 u) (hs0_0 u) (ms0_1 u) (hs0_1 u) (ms0_2 u) (hs0_2 u) (ms0_3 u) (hs0_3 u) (ms0_4 u) (hs0_4 u) (ms0_5 u) (hs0_5 u) scM0_0 (Memref.isWhole_whole _) ((hcond0_0 u).mpr hu0) (fun h => hu1 ((hcond0_1 u).mp h)) (iblk m c 0 u) (iblk m c 1 u) (iblk m c 2 u) (iblk m c 3 u) (iblk m c 4 u)

/-- What the output block's staging buffer holds after an odd point `t`, `u` the point before it: from the zero block,
    the step at `u`, the step at `t`, the epilogue at `t` — each over that point's operand blocks. -/
theorem outs_odd (c : Dev nD) (t u : Fin cfg0.N) (h1 : t.val % 2 = 1) (hu : u.val = t.val - 1) :
    (outsAt0 m c t.val t.isLt).1
      = k0_pay3 (k0_pay2 (iblk m c 0 t) (iblk m c 1 t) (iblk m c 3 t) (iblk m c 2 t)
          (k0_pay2 (iblk m c 0 u) (iblk m c 1 u) (iblk m c 3 u) (iblk m c 2 u) (k0_pay1 (F := Ideal))))
          (iblk m c 4 t) := by
  have h0 : ¬t.val % 2 = 0 := by omega
  have hu0 : u.val % 2 = 0 := by omega
  have eA : ∀ (n : ℕ) (hn : n < cfg0.N), n = u.val → (outsAt0 m c n hn).2
      = k0_pay2 (iblk m c 0 u) (iblk m c 1 u) (iblk m c 3 u) (iblk m c 2 u) (k0_pay1 (F := Ideal)) := by
    intro n hn e; subst e; exact outs_even m c u hu0
  rw [outsAt0_B m c t h0 h1]
  dsimp only
  rw [eA _ _ hu.symm]
  exact Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
    (k0_pay2 (iblk m c 0 u) (iblk m c 1 u) (iblk m c 3 u) (iblk m c 2 u) (k0_pay1 (F := Ideal)))

/-- What the output array holds after the launch, as one function of the arrays the launch finds. -/
def outArr (c : Dev nD) : S8192x11264.Idx → Ideal .f32 := fun i =>
  Cert.Spec.tiled cv (V m c main_v0) (V m c main_v1) (V m c main_v3) (V m c main_v5) (V m c main_v6) (i 0) (i 1)

/-- What an odd point `t` writes back is the block of `outArr` the point's output window names. -/
theorem flushed_eq (c : Dev nD) (t : Fin cfg0.N) (hf : (cfg0.win 5).flush t = true) :
    (dats m 0 c).flushed 5 t = ((cfg0.win 5).blk t).view.read (Elt Ideal) (outArr m c) := by
  have h1 : t.val % 2 = 1 := (flush0_5 t).mp hf
  have hN : cfg0.N = 704 := N_0
  have htN : t.val < 704 := lt_of_lt_of_eq t.isLt hN
  obtain ⟨u, hu⟩ : ∃ u : Fin cfg0.N, u.val = t.val - 1 := ⟨⟨t.val - 1, Nat.lt_of_le_of_lt (Nat.sub_le _ _) t.isLt⟩, rfl⟩
  show (cfg0.win 5).cut (grid0.coords t) ((dats m 0 c).after 5 t) = _
  rw [after0_5, outs_odd m c t u h1 hu]
  funext y
  obtain ⟨p, q, rfl⟩ : ∃ (p q : Fin 512), y = ix2 p q := ⟨y 0, y 1, eq_ix2 y⟩
  obtain ⟨r, hr⟩ : ∃ r : Fin 8192, r.val = 512 * (t.val / 44) + p.val :=
    ⟨⟨512 * (t.val / 44) + p.val, by have := p.isLt; omega⟩, rfl⟩
  obtain ⟨n, hn⟩ : ∃ n : Fin 11264, n.val = 512 * (t.val / 2 % 22) + q.val :=
    ⟨⟨512 * (t.val / 2 % 22) + q.val, by have := q.isLt; omega⟩, rfl⟩
  have he : ((cfg0.win 5).blk t).view.emb (ix2 p q) = ix2 r n := by
    obtain ⟨-, -, -, -, -, -, -, -, -, -, e0, e1⟩ := idx_facts t
    funext a; apply Fin.ext
    match a with
    | ⟨0, _⟩ => show win0_5.index t 0 * 512 + 1 * p.val = r.val; rw [e0, hr]; omega
    | ⟨1, _⟩ => show win0_5.index t 1 * 512 + 1 * q.val = n.val; rw [e1, hn]; omega
  show k0_pay3 (F := Ideal) _ _ (ix2 p q) = outArr m c (((cfg0.win 5).blk t).view.emb (ix2 p q))
  rw [he]
  refine (Payload.tile_apply (iblk m c 0 u) (iblk m c 0 t) (iblk m c 1 u) (iblk m c 1 t) (iblk m c 2 u) (iblk m c 2 t)
    (iblk m c 3 u) (iblk m c 3 t) (iblk m c 4 t) p q).trans ?_
  exact Cert.Spec.block_eq_tiled cv _ _ _ _ _ _ _ _ _ p q
    (V m c main_v0) (V m c main_v1) (V m c main_v3) (V m c main_v5) (V m c main_v6) r n
    (fun k => iblk0_apply m c u p k r (Cert.Spec.lo k) (by rw [hr]; omega) (by show k.val = 2048 * (u.val % 2) + k.val; omega))
    (fun k => iblk0_apply m c t p k r (Cert.Spec.hi k) hr (by show 2048 + k.val = 2048 * (t.val % 2) + k.val; omega))
    (fun k => iblk1_apply m c u q k n (Cert.Spec.lo k) (by rw [hn]; omega) (by show k.val = 2048 * (u.val % 2) + k.val; omega))
    (fun k => iblk1_apply m c t q k n (Cert.Spec.hi k) hn (by show 2048 + k.val = 2048 * (t.val % 2) + k.val; omega))
    (iblk2_apply m c u q n (by rw [hn]; omega)) (iblk2_apply m c t q n hn)
    (iblk3_apply m c u q n (by rw [hn]; omega)) (iblk3_apply m c t q n hn)
    (iblk4_apply m c t q n hn)

/-- An index of the output array is in point `t`'s block iff each coordinate is in the block's range on its axis. -/
theorem mem_blk (t : Fin cfg0.N) (i : S8192x11264.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v7).slice (win0_5.rect t)).set ↔ _
  rw [View.set_slice_whole, Rect.mem_set_unit]
  exact Iff.rfl

/-- The odd points' blocks tile the output: row `i₀`, column `i₁` is in the block of the odd point of row block
    `i₀ / 512` and column block `i₁ / 512`. -/
theorem cover (i : S8192x11264.Idx) :
    ∃ t : Fin cfg0.N, (cfg0.win 5).flush t = true ∧ i ∈ ((cfg0.win 5).blk t).view.set := by
  have hi0 : (i 0).val < 8192 := (i 0).isLt
  have hi1 : (i 1).val < 11264 := (i 1).isLt
  have hN : cfg0.N = 704 := N_0
  obtain ⟨t, ht⟩ : ∃ t : Fin cfg0.N, t.val = ((i 0).val / 512 * 22 + (i 1).val / 512) * 2 + 1 :=
    ⟨⟨((i 0).val / 512 * 22 + (i 1).val / 512) * 2 + 1, by rw [hN]; omega⟩, rfl⟩
  refine ⟨t, (flush0_5 t).mpr (by omega), ?_⟩
  rw [mem_blk]
  obtain ⟨-, -, -, -, -, -, -, -, -, -, e0, e1⟩ := idx_facts t
  intro a
  match a with
  | ⟨0, _⟩ =>
    show win0_5.index t 0 * 512 ≤ (i 0).val ∧ (i 0).val < win0_5.index t 0 * 512 + 512
    rw [e0]; omega
  | ⟨1, _⟩ =>
    show win0_5.index t 1 * 512 ≤ (i 1).val ∧ (i 1).val < win0_5.index t 1 * 512 + 512
    rw [e1]; omega

/-- So the output array ends holding `outArr`. -/
theorem final (c : Dev nD) : (dats m 0 c).arrAt 5 cfg0.N = outArr m c :=
  (dats m 0 c).arrAt_eq_of_cover 5 (outArr m c) (flushed_eq m c) cover

end Cert.KernelIdeal.Blocks

end
-- ==== Proof.HostIn.lean ====
/-
  What the kernel's windows find in their arrays: the host operations before the launch flatten the activations to
  [8192, 4096] (row 2048·b + s) and pad the weights, scales, zero points and bias along the output-feature axis from
  11008 to 11264. Below the original extent a padded array reads the argument; the padding itself is never needed,
  because the padded output columns are sliced away after the launch.
-/
import proofs.«116841_j1623497638588_1_alg».proof.Proof.Gen.KernelIdeal.Frame
import Idealize.ShloMosaic.Lib.Pipeline.Value
import Idealize.ShloMosaic.Lib.KernelVsHost
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.HostIn

open Cert.KernelIdeal Cert.KernelIdeal.Gen

variable {F : FTy → Type} [FloatOps F]
variable (m : (ℓ : Loc nD τ sig) → Buf (Elt F) ℓ)

/-- The activations, flattened. -/
theorem V_v0 (c : Dev nD) : (V m c main_v0 : S8192x4096.Idx → Elt F .f32)
    = shapeCast S8192x4096 (m ((c : Thread nD τ).loc main_arg0)) Facts₀.shapeCasts_S4x2048x4096_S8192x4096 := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

/-- The weights, padded by 256 rows. -/
theorem V_v1 (c : Dev nD) : (V m c main_v1 : S11264x4096.Idx → Elt F .i32)
    = pad S11264x4096 ![0, 0] ![256, 0] ![0, 0] (m ((c : Thread nD τ).loc main_arg1)) (constantI S_ 32 0#32)
        Facts₀.pads_S11008x4096_S11264x4096_02560_000 Facts₀.h_S_ := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

/-- The scales, padded by 256 entries and stood up as a column. -/
theorem V_v3 (c : Dev nD) : (V m c main_v3 : S11264x1.Idx → Elt F .f32)
    = shapeCast S11264x1 (pad S11264 ![0] ![256] ![0] (m ((c : Thread nD τ).loc main_arg2))
        (sitofp (F := F) .f32 (constantI S_ 32 0#32)) Facts₀.pads_S11008_S11264_02560 Facts₀.h_S_) Facts₀.shapeCasts_S11264_S11264x1 := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

/-- The zero points, padded by 256 entries and stood up as a column. -/
theorem V_v5 (c : Dev nD) : (V m c main_v5 : S11264x1.Idx → Elt F .i32)
    = shapeCast S11264x1 (pad S11264 ![0] ![256] ![0] (m ((c : Thread nD τ).loc main_arg3))
        (constantI S_ 32 0#32) Facts₀.pads_S11008_S11264_02560 Facts₀.h_S_) Facts₀.shapeCasts_S11264_S11264x1 := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

/-- The bias row, padded by 256 columns. -/
theorem V_v6 (c : Dev nD) : (V m c main_v6 : S1x11264.Idx → Elt F .f32)
    = pad S1x11264 ![0, 0] ![0, 256] ![0, 0] (m ((c : Thread nD τ).loc main_arg4))
        (sitofp (F := F) .f32 (constantI S_ 32 0#32)) Facts₀.pads_S1x11008_S1x11264_000_02560 Facts₀.h_S_ := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

/-- Row `2048·b + s` of the flattened activations is position (`b`, `s`). -/
theorem V_v0_apply (c : Dev nD) (r : Fin 8192) (k : Fin 4096) (b : Fin 4) (s : Fin 2048) (hr : r.val = 2048 * b.val + s.val) :
    (V m c main_v0 : S8192x4096.Idx → Elt F .f32) (ix2 r k) = m ((c : Thread nD τ).loc main_arg0) (ix3 b s k) := by
  rw [V_v0]
  exact shapeCast_apply _ _ (ix2 r k) (ix3 b s k) (by
    rw [Shape.rowMajor_val_three, Shape.rowMajor_val_two]
    show (b.val * 2048 + s.val) * 4096 + k.val = r.val * 4096 + k.val
    rw [hr]; ring)

/-- Below row 11008 the padded weights are the weights. -/
theorem V_v1_apply (c : Dev nD) (n : Fin 11264) (k : Fin 4096) (o : Fin 11008) (hn : n.val = o.val) :
    (V m c main_v1 : S11264x4096.Idx → Elt F .i32) (ix2 n k) = m ((c : Thread nD τ).loc main_arg1) (ix2 o k) := by
  rw [V_v1]
  exact pad_apply_of_inside _ _ _ _ _ _ _ (ix2 n k) (ix2 o k) (fun a => match a with
    | ⟨0, _⟩ => by show n.val = 0 + o.val * (0 + 1); omega
    | ⟨1, _⟩ => by show k.val = 0 + k.val * (0 + 1); omega)

/-- Below row 11008 the padded scale column is the scales. -/
theorem V_v3_apply (c : Dev nD) (n : Fin 11264) (o : Fin 11008) (hn : n.val = o.val) :
    (V m c main_v3 : S11264x1.Idx → Elt F .f32) (ix2 n 0) = m ((c : Thread nD τ).loc main_arg2) (ix1 o) := by
  rw [V_v3]
  refine (shapeCast_apply _ _ (ix2 n 0) (ix1 n) (by
    rw [Shape.rowMajor_val_one, Shape.rowMajor_val_two]
    show n.val = n.val * 1 + 0; omega)).trans ?_
  exact pad_apply_of_inside _ _ _ _ _ _ _ (ix1 n) (ix1 o) (fun a => match a with
    | ⟨0, _⟩ => by show n.val = 0 + o.val * (0 + 1); omega)

/-- Below row 11008 the padded zero-point column is the zero points. -/
theorem V_v5_apply (c : Dev nD) (n : Fin 11264) (o : Fin 11008) (hn : n.val = o.val) :
    (V m c main_v5 : S11264x1.Idx → Elt F .i32) (ix2 n 0) = m ((c : Thread nD τ).loc main_arg3) (ix1 o) := by
  rw [V_v5]
  refine (shapeCast_apply _ _ (ix2 n 0) (ix1 n) (by
    rw [Shape.rowMajor_val_one, Shape.rowMajor_val_two]
    show n.val = n.val * 1 + 0; omega)).trans ?_
  exact pad_apply_of_inside _ _ _ _ _ _ _ (ix1 n) (ix1 o) (fun a => match a with
    | ⟨0, _⟩ => by show n.val = 0 + o.val * (0 + 1); omega)

/-- Below column 11008 the padded bias row is the bias. -/
theorem V_v6_apply (c : Dev nD) (n : Fin 11264) (o : Fin 11008) (hn : n.val = o.val) :
    (V m c main_v6 : S1x11264.Idx → Elt F .f32) (ix2 0 n) = m ((c : Thread nD τ).loc main_arg4) (ix2 0 o) := by
  rw [V_v6]
  exact pad_apply_of_inside _ _ _ _ _ _ _ (ix2 0 n) (ix2 0 o) (fun a => match a with
    | ⟨0, _⟩ => by show 0 = 0 + 0 * (0 + 1); omega
    | ⟨1, _⟩ => by show n.val = 0 + o.val * (0 + 1); omega)

end Cert.KernelIdeal.HostIn

end
-- ==== Proof.KernelValue.lean ====
/-
  The kernel program's run, read: after the launch the host slices the padded output back to 11008 columns and unflattens
  its rows, so the result at (`b`, `s`, `o`) is entry (`2048·b + s`, `o`) of the launch's output array — the tiled
  evaluation on the flattened and padded arrays, which is the layer on the arguments.
-/
import proofs.«116841_j1623497638588_1_alg».proof.Proof.Blocks
import proofs.«116841_j1623497638588_1_alg».proof.Proof.HostIn
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen
open Cert.KernelIdeal.Payload (cv)

variable (m : (ℓ : Loc nD τ sig) → Buf (Elt Ideal) ℓ) (ρ : Dev nD → PrngReg)

/-- The layer's result of the arguments as launched. -/
def result (c : Dev nD) : S4x2048x11008.Idx → Ideal .f32 := fun i =>
  Cert.Spec.linear cv (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

/-- The host operations after the launch: the output array sliced to its first 11008 columns, its rows unflattened. -/
theorem tail_eq (c : Dev nD) :
    (Pipeline.afterTail₀ cfgs (dats m) 0 (V0 m) [hostOps1] c main_v9 : S4x2048x11008.Idx → Ideal .f32)
      = shapeCast S4x2048x11008 (extractStridedSlice S8192x11008 ![0, 0] (Blocks.outArr m c)
          Facts₀.slices_S8192x11264_S8192x11008_0_0) Facts₀.shapeCasts_S8192x11008_S4x2048x11008 := by
  have e : Pipeline.withArrays (cfgs 0).spec c (V0 m c) (fun w => (dats m 0 c).arrAt w (cfgs 0).N) (Proc.devRef .tc main_v7)
      = Blocks.outArr m c :=
    (Pipeline.withArrays_arr spec0 launch0.win.arr_inj c _ _ 5).trans (Blocks.final m c)
  unfold Pipeline.afterTail₀
  show StableHlo.after hostOps1 _ (Proc.devRef .tc main_v9) = _
  after_results
  rw [e]
  rfl

/-- Read at (`b`, `s`, `o`), that is the layer. -/
theorem tail_apply (c : Dev nD) (b : Fin 4) (s : Fin 2048) (o : Fin 11008) :
    shapeCast S4x2048x11008 (extractStridedSlice S8192x11008 ![0, 0] (Blocks.outArr m c)
        Facts₀.slices_S8192x11264_S8192x11008_0_0) Facts₀.shapeCasts_S8192x11008_S4x2048x11008 (ix3 b s o)
      = result m c (ix3 b s o) := by
  obtain ⟨r, hr⟩ : ∃ r : Fin 8192, r.val = 2048 * b.val + s.val :=
    ⟨⟨2048 * b.val + s.val, by have := b.isLt; have := s.isLt; omega⟩, rfl⟩
  obtain ⟨n, hn⟩ : ∃ n : Fin 11264, n.val = o.val := ⟨⟨o.val, by have := o.isLt; omega⟩, rfl⟩
  refine (shapeCast_apply _ _ (ix3 b s o) (ix2 r o) (by
    rw [Shape.rowMajor_val_two, Shape.rowMajor_val_three]
    show r.val * 11008 + o.val = (b.val * 2048 + s.val) * 11008 + o.val
    rw [hr]; ring)).trans ?_
  refine (extractStridedSlice_apply _ _ _ (ix2 r o) (ix2 r n) (fun a => match a with
    | ⟨0, _⟩ => by show r.val = 0 + r.val; omega
    | ⟨1, _⟩ => by show n.val = 0 + o.val; omega)).trans ?_
  show Cert.Spec.tiled cv (V m c main_v0) (V m c main_v1) (V m c main_v3) (V m c main_v5) (V m c main_v6) r n
    = Cert.Spec.linear cv (m ((c : Thread nD τ).loc main_arg0)) (m ((c : Thread nD τ).loc main_arg1)) (m ((c : Thread nD τ).loc main_arg2)) (m ((c : Thread nD τ).loc main_arg3)) (m ((c : Thread nD τ).loc main_arg4)) b s o
  exact Cert.Spec.tiled_eq_linear cv _ _ _ _ _ r n _ _ _ _ _ b s o
    (fun k => HostIn.V_v0_apply m c r k b s hr) (fun k => HostIn.V_v1_apply m c n k o hn)
    (HostIn.V_v3_apply m c n o hn) (HostIn.V_v5_apply m c n o hn) (HostIn.V_v6_apply m c n o hn)

/-- The result buffer after the run. -/
theorem result_eq (c : Dev nD) :
    (Pipeline.afterTail₀ cfgs (dats m) 0 (V0 m) [hostOps1] c main_v9 : S4x2048x11008.Idx → Ideal .f32) = result m c := by
  rw [tail_eq]
  funext i
  obtain ⟨b, s, o, rfl⟩ : ∃ (b : Fin 4) (s : Fin 2048) (o : Fin 11008), i = ix3 b s o := ⟨i 0, i 1, i 2, eq_ix3 i⟩
  exact tail_apply m c b s o

/-- Every weakly fair execution of the kernel program terminates with the result buffer at the layer of the arguments,
    the arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefSpec.lean ====
/-
  The reference computes the specification: read one operation at a time, its result at (`b`, `s`, `o`) is the
  contraction over the 4096 input features of the activation times the dequantized weight `scale[o]·(w[o,i] − zp[o])`,
  plus `bias[0,o]`.
-/
import proofs.«116841_j1623497638588_1_alg».proof.Proof.Gen.ReferenceIdeal.Read
import proofs.«116841_j1623497638588_1_alg».proof.Proof.Spec

noncomputable section

open Idealize.ShloMosaic Idealize.ShloMosaic.TcCoe Idealize.SL.Sem Idealize.ShloMosaic.ValueIdx

namespace Cert.ReferenceIdeal.RefSpec

open Cert.ReferenceIdeal Cert.ReferenceIdeal.Read

/-- An integer entry as a real number. -/
abbrev cv : BitVec 32 → EReal := fun b => FloatOps.sitofp (F := Ideal) .f32 b

theorem lidx_eq (b : Fin 4) (s : Fin 2048) (o : Fin 11008) (k : Fin 4096) :
    lidx_main_v8 (ix3 b s o) k = ix3 b s k :=
  funext fun a => Fin.ext (by match a with | ⟨0, _⟩ => rfl | ⟨1, _⟩ => rfl | ⟨2, _⟩ => rfl)

theorem ridx_eq (b : Fin 4) (s : Fin 2048) (o : Fin 11008) (k : Fin 4096) :
    ridx_main_v8 (ix3 b s o) k = ix2 o k :=
  funext fun a => Fin.ext (by match a with | ⟨0, _⟩ => rfl | ⟨1, _⟩ => rfl)

theorem scale_idx_eq (o : Fin 11008) (k : Fin 4096) : idx_main_v2 (idx_main_v6 (ix2 o k)) = ix1 o :=
  funext fun a => Fin.ext (by match a with | ⟨0, _⟩ => rfl)

theorem zp_idx_eq (o : Fin 11008) (k : Fin 4096) : idx_main_v3 (idx_main_v4 (ix2 o k)) = ix1 o :=
  funext fun a => Fin.ext (by match a with | ⟨0, _⟩ => rfl)

theorem bias_idx_eq (b : Fin 4) (s : Fin 2048) (o : Fin 11008) : idx_main_v9 (idx_main_v10 (ix3 b s o)) = ix2 0 o :=
  funext fun a => Fin.ext (by match a with | ⟨0, _⟩ => rfl | ⟨1, _⟩ => rfl)

/-- The reference's result at (`b`, `s`, `o`) is the layer's. -/
theorem ref_apply (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) (x3 : (⟨S11008, .i32⟩ : BufTy).Contents (Elt Ideal))
    (x4 : (⟨S1x11008, .f32⟩ : BufTy).Contents (Elt Ideal)) (b : Fin 4) (s : Fin 2048) (o : Fin 11008) :
    val_main_v11 (F := Ideal) x0 x1 x2 x3 x4 (ix3 b s o) = Cert.Spec.linear cv x0 x1 x2 x3 x4 b s o := by
  rw [val_main_v11_apply, val_main_v8_apply, val_main_v10_apply, val_main_v9_apply, bias_idx_eq]
  unfold Cert.Spec.linear
  refine congrArg (· + x4 (ix2 0 o)) (Finset.sum_congr rfl fun k _ => ?_)
  rw [val_main_v7_apply, val_main_v6_apply, val_main_v2_apply, val_main_v5_apply, val_main_v0_apply,
    val_main_v4_apply, val_main_v3_apply, val_main_v1_apply, lidx_eq, ridx_eq, scale_idx_eq, zp_idx_eq]
  rfl

/-- The reference's whole result array. -/
theorem ref_eq (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) (x3 : (⟨S11008, .i32⟩ : BufTy).Contents (Elt Ideal))
    (x4 : (⟨S1x11008, .f32⟩ : BufTy).Contents (Elt Ideal)) :
    val_main_v11 (F := Ideal) x0 x1 x2 x3 x4 = fun i => Cert.Spec.linear cv x0 x1 x2 x3 x4 (i 0) (i 1) (i 2) := by
  funext i
  obtain ⟨b, s, o, rfl⟩ : ∃ (b : Fin 4) (s : Fin 2048) (o : Fin 11008), i = ix3 b s o := ⟨i 0, i 1, i 2, eq_ix3 i⟩
  exact ref_apply x0 x1 x2 x3 x4 b s o

end Cert.ReferenceIdeal.RefSpec

end
-- ==== Proof.lean ====
/-
  A linear layer with integer-quantized weights: for activations `x` [4, 2048, 4096], integer weights `w` [11008, 4096],
  per-row scales and integer zero points [11008] and a bias row [1, 11008],

      out[b, s, o] = (∑ i, x[b, s, i] · (scale[o] · (w[o, i] − zp[o]))) + bias[0, o].

  The reference computes exactly this. The kernel flattens the activations to 8192 rows, pads the 11008 output features
  to 11264 = 22 · 512, and covers the padded output by 16 × 22 tiles of 512 × 512; each tile is visited twice, once per
  half of the 4096-long contraction: an accumulator is zeroed and receives the first half's product, then the second
  half's, each product taken with the weights dequantized as `(w − zp) · scale`; after the second visit the bias row is
  added and the tile written back. The padded columns are sliced away and the rows unflattened.

  Over the extended reals (every float operation exact, a change of float format the identity) both programs compute the
  same number at every index: the product's factors commute, and a sum over 4096 positions is the sum over the first
  2048, started from zero, plus the sum over the last 2048 (`Cert.Spec.tiled_eq_linear`). No finiteness of any entry is
  needed, so the precondition is never opened. The padding values play no part: an entry of a padded array below the
  original extent is the argument's entry, and only those reach the result.

  The modules: `Spec` (the formulas and the law between them), `Payload` (the kernel body's arithmetic at an index),
  `Pieces` (what the body's stores leave at each kind of grid point), `HostIn` (the flattened and padded arrays),
  `Blocks` (the launch: what each tile's second visit writes back, and that those blocks tile the output),
  `KernelValue` (the kernel program's run), `RefSpec` (the reference computes the formula).
-/
import proofs.«116841_j1623497638588_1_alg».proof.Defs
import proofs.«116841_j1623497638588_1_alg».proof.Proof.Gen.Kernel
import proofs.«116841_j1623497638588_1_alg».proof.Proof.Gen.Kernel.Frame
import proofs.«116841_j1623497638588_1_alg».proof.Proof.Gen.KernelIdeal
import proofs.«116841_j1623497638588_1_alg».proof.Proof.Gen.KernelIdeal.Frame
import proofs.«116841_j1623497638588_1_alg».proof.Proof.Gen.ReferenceIdeal
import proofs.«116841_j1623497638588_1_alg».proof.Proof.Gen.Pre_finite_inputs
import proofs.«116841_j1623497638588_1_alg».proof.Proof.Gen.ReferenceIdeal.Run
import proofs.«116841_j1623497638588_1_alg».proof.Proof.Gen.ReferenceIdeal.Read
import proofs.«116841_j1623497638588_1_alg».proof.Proof.KernelValue
import proofs.«116841_j1623497638588_1_alg».proof.Proof.RefSpec
import Idealize.ShloMosaic.Adequacy
import Idealize.ShloMosaic.Init

noncomputable section

namespace Cert.Proof

open Idealize.ShloMosaic Idealize.SL.Sem

/-- The kernel program as printed terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the layer's result of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefSpec.ref_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
